-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S256x256 : Shape := ⟨2, ![256, 256]⟩
abbrev S256 : Shape := ⟨1, ![256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : IVec S32x8192 32) (main_arg1 : FVec F S256x256 .f32) (main_arg2 : FVec F S256 .f32) : IVec S_ 1 :=
  let main_v0 : FVec F S256x256 .f32 := Host.absf main_arg1
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S32x8192 : Shape := ⟨2, ![32, 8192]⟩
abbrev S256x256 : Shape := ⟨2, ![256, 256]⟩
abbrev S256 : Shape := ⟨1, ![256]⟩
abbrev S1x1x256 : Shape := ⟨3, ![1, 1, 256]⟩
abbrev S32x8192x256 : Shape := ⟨3, ![32, 8192, 256]⟩
abbrev S32x256 : Shape := ⟨2, ![32, 256]⟩
abbrev S32x256x256 : Shape := ⟨3, ![32, 256, 256]⟩
abbrev S8192 : Shape := ⟨1, ![8192]⟩
abbrev S8192x256 : Shape := ⟨2, ![8192, 256]⟩
abbrev S8192x1 : Shape := ⟨2, ![8192, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x8192, .i32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256x256, .bf16⟩
  | .hbm, ⟨5, _⟩ => ⟨S256x256, .f32⟩
  | .hbm, ⟨6, _⟩ => ⟨S256x256, .f32⟩
  | .hbm, ⟨7, _⟩ => ⟨S256x256, .bf16⟩
  | .hbm, ⟨8, _⟩ => ⟨S1x1x256, .f32⟩
  | .hbm, ⟨9, _⟩ => ⟨S32x8192x256, .f32⟩
  | .local _ .vmem, ⟨0, _⟩ => ⟨S32x256, .i32⟩
  | .local _ .vmem, ⟨1, _⟩ => ⟨S32x256, .i32⟩
  | .local _ .vmem, ⟨2, _⟩ => ⟨S256x256, .bf16⟩
  | .local _ .vmem, ⟨3, _⟩ => ⟨S256x256, .bf16⟩
  | .local _ .vmem, ⟨4, _⟩ => ⟨S1x1x256, .f32⟩
  | .local _ .vmem, ⟨5, _⟩ => ⟨S32x256x256, .f32⟩
  | .local _ .vmem, ⟨6, _⟩ => ⟨S32x256x256, .f32⟩
  | _, _ => ⟨S32x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x1x256 : S256.ShapeCasts S1x1x256
  inb_S32x256_S32x256_0_0 : ∀ a, (![0, 0] : Fin 2 → Nat) a + S32x256.size a ≤ S32x256.size a
  h_S32x256 : 0 < S32x256.numel
  shapeCasts_S32x256_S8192 : S32x256.ShapeCasts S8192
  iota_S8192x256_d1_w32 : S8192x256.Iotas .tc 32 [1]
  shapeCasts_S8192_S8192x1 : S8192.ShapeCasts S8192x1
  broadcasts_S8192x1_S8192x256 : S8192x1.Broadcasts S8192x256
  natLt_1_32 : 1 < 32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S8192x256_S32x256x256 : S8192x256.ShapeCasts S32x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x1x256_S32x256x256 : S1x1x256.Broadcasts S32x256x256
  inb_S32x256x256_S32x256x256_0_0_0 : ∀ a, (![0, 0, 0] : Fin 3 → Nat) a + S32x256x256.size a ≤ S32x256x256.size a
  h_S32x256x256 : 0 < S32x256x256.numel
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x8192.size a
  hwx0_0 : ∀ i : grid0.Coords, EltTy.bits .i32 = 32 ∨ (Rect.block (s := S32x8192) S32x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S1x1x256.size a
  hwx0_3 : ∀ i : grid0.Coords, EltTy.bits .f32 = 32 ∨ (Rect.block (s := S1x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256x256.size a ≤ S32x8192x256.size a
  hwx0_4 : ∀ i : grid0.Coords, EltTy.bits .f32 = 32 ∨ (Rect.block (s := S32x8192x256) S32x256x256.size (cc0_transform_4 i) (hinb0_4 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S32x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8192 : Shape := ⟨2, ![32, 8192]⟩
abbrev S256x256 : Shape := ⟨2, ![256, 256]⟩
abbrev S256 : Shape := ⟨1, ![256]⟩
abbrev S32x8192x1 : Shape := ⟨3, ![32, 8192, 1]⟩
abbrev S1x1x256 : Shape := ⟨3, ![1, 1, 256]⟩
abbrev S32x8192x256 : Shape := ⟨3, ![32, 8192, 256]⟩

abbrev nBuf : Space → Nat
  | .hbm => 13
  | .vmem => 0
  | .smem => 0
  | _ => 0

abbrev bufTy : (tb : Table) → Fin (tcTables nBuf tb) → BufTy
  | .hbm, ⟨0, _⟩ => ⟨S32x8192, .i32⟩
  | .hbm, ⟨1, _⟩ => ⟨S256x256, .f32⟩
  | .hbm, ⟨2, _⟩ => ⟨S256, .f32⟩
  | .hbm, ⟨3, _⟩ => ⟨S32x8192x1, .i32⟩
  | .hbm, ⟨4, _⟩ => ⟨S1x1x256, .i32⟩
  | .hbm, ⟨5, _⟩ => ⟨S32x8192x256, .i32⟩
  | .hbm, ⟨6, _⟩ => ⟨S32x8192x256, .i32⟩
  | .hbm, ⟨7, _⟩ => ⟨S32x8192x256, .i1⟩
  | .hbm, ⟨8, _⟩ => ⟨S32x8192x256, .f32⟩
  | .hbm, ⟨9, _⟩ => ⟨S32x8192x256, .f32⟩
  | .hbm, ⟨10, _⟩ => ⟨S1x1x256, .f32⟩
  | .hbm, ⟨11, _⟩ => ⟨S32x8192x256, .f32⟩
  | .hbm, ⟨12, _⟩ => ⟨S32x8192x256, .f32⟩
  | _, _ => ⟨S32x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]

class Facts₀ : Prop where
  bcast_S32x8192_S32x8192x1_0_1 : S32x8192.BroadcastsInDim S32x8192x1 (![0, 1] : Fin 2 → Fin S32x8192x1.rank)
  bcast_S32x8192x1_S32x8192x256_0_1_2 : S32x8192x1.BroadcastsInDim S32x8192x256 (![0, 1, 2] : Fin 3 → Fin S32x8192x256.rank)
  bcast_S1x1x256_S32x8192x256_0_1_2 : S1x1x256.BroadcastsInDim S32x8192x256 (![0, 1, 2] : Fin 3 → Fin S32x8192x256.rank)
  bcast_S256_S1x1x256_2 : S256.BroadcastsInDim S1x1x256 (![2] : Fin 1 → Fin S1x1x256.rank)
  dot_S32x8192x256_S256x256_S32x8192x256_2_1_01_0_n_n_wf : DotDims.WF S32x8192x256 S256x256 S32x8192x256 [2] [1] [0, 1] [0] [] []

variable [Facts₀]

def dot_S32x8192x256_S256x256_S32x8192x256_2_1_01_0_n_n : DotDims S32x8192x256 S256x256 S32x8192x256 where
  lhsContracting := [2]
  rhsContracting := [1]
  lhsNonContracting := [0, 1]
  rhsNonContracting := [0]
  lhsBatch := []
  rhsBatch := []
  wf := dot_S32x8192x256_S256x256_S32x8192x256_2_1_01_0_n_n_wf

class Facts : Prop extends Facts₀ where

variable [Facts]
-- ==== Proof.Lookup.lean ====
import Idealize.ShloMosaic.Lib.ValueIdx
import Idealize.ShloMosaic.PureOps.Ideal.Laws

/-!
# An embedding lookup written as a one-hot matrix product

A token array `x : i32[32, 8192]`, a weight matrix `W : f32[256, 256]` (rows the outputs, columns the vocabulary) and a
bias `b : f32[256]`. The result at `(β, s, o)` is

  `∑ v < 256, [x(β, s) = v] · W(o, v) + b(o)`,

the indicator `[x(β, s) = v]` being the integer comparison's bit read as the real `0` or `1`. A token outside
`0 … 255` selects no column and leaves the bias alone.

The same sum can be taken in two parts, against a matrix `hi` and a remainder `lo` already transposed to
`[vocabulary, output]`, the bias kept as a `[1, 1, 256]` array: `lookupSplit`. When `hi` is the transpose of `W`,
`lo` the transpose of `W - W`, and every entry of `W` is a real number, the remainder vanishes entry by entry, its
sum is `0`, and the two-part sum is the plain one (`lookupSplit_eq_lookup`). Finiteness is what the step `w - w = 0`
needs: on the extended reals `⊤ - ⊤` is not `0`.
-/

noncomputable section

namespace Cert.Lookup

open Idealize.ShloMosaic Idealize.ShloMosaic.ValueIdx
open scoped BigOperators

/-- The indicator of "token word `w` is vocabulary entry `v`": the comparison's one bit, read unsigned, as a real. -/
def hot (w : BitVec 32) (v : Fin 256) : EReal :=
  (((IntOp.cmpi .eq w (BitVec.ofNat 32 v.val)).toNat : ℝ) : EReal)

/-- The lookup at the coordinates `(β, s, o)`: the row of `W` for output `o` summed against the indicator of the
    token at `(β, s)`, plus the bias at `o`. -/
def lookupAt (x : (⟨2, ![32, 8192]⟩ : Shape).Idx → BitVec 32) (W : (⟨2, ![256, 256]⟩ : Shape).Idx → EReal)
    (b : (⟨1, ![256]⟩ : Shape).Idx → EReal) (β : Fin 32) (s : Fin 8192) (o : Fin 256) : EReal :=
  (∑ v : Fin 256, hot (x (ix2 β s)) v * W (ix2 o v)) + b (ix1 o)

/-- The lookup as one array. -/
def lookup (x : (⟨2, ![32, 8192]⟩ : Shape).Idx → BitVec 32) (W : (⟨2, ![256, 256]⟩ : Shape).Idx → EReal)
    (b : (⟨1, ![256]⟩ : Shape).Idx → EReal) : (⟨3, ![32, 8192, 256]⟩ : Shape).Idx → EReal :=
  fun i => lookupAt x W b (i 0) (i 1) (i 2)

/-- The lookup taken in two parts against transposed matrices `hi` and `lo`, the bias a `[1, 1, 256]` array, at
    the coordinates `(β, s, o)`. -/
def lookupSplitAt (x : (⟨2, ![32, 8192]⟩ : Shape).Idx → BitVec 32) (hi lo : (⟨2, ![256, 256]⟩ : Shape).Idx → EReal)
    (b3 : (⟨3, ![1, 1, 256]⟩ : Shape).Idx → EReal) (β : Fin 32) (s : Fin 8192) (o : Fin 256) : EReal :=
  ((∑ v : Fin 256, hot (x (ix2 β s)) v * hi (ix2 v o)) + (∑ v : Fin 256, hot (x (ix2 β s)) v * lo (ix2 v o)))
    + b3 (ix3 (0 : Fin 1) (0 : Fin 1) o)

/-- The two-part lookup as one array. -/
def lookupSplit (x : (⟨2, ![32, 8192]⟩ : Shape).Idx → BitVec 32) (hi lo : (⟨2, ![256, 256]⟩ : Shape).Idx → EReal)
    (b3 : (⟨3, ![1, 1, 256]⟩ : Shape).Idx → EReal) : (⟨3, ![32, 8192, 256]⟩ : Shape).Idx → EReal :=
  fun i => lookupSplitAt x hi lo b3 (i 0) (i 1) (i 2)

/-- With `hi = Wᵀ`, `lo = (W - W)ᵀ` and `W` real-valued, the second part is a sum of zeros. -/
theorem lookupSplitAt_eq_lookupAt (x : (⟨2, ![32, 8192]⟩ : Shape).Idx → BitVec 32)
    (W hi lo : (⟨2, ![256, 256]⟩ : Shape).Idx → EReal) (b : (⟨1, ![256]⟩ : Shape).Idx → EReal)
    (b3 : (⟨3, ![1, 1, 256]⟩ : Shape).Idx → EReal)
    (hW : ∀ j, ∃ r : ℝ, W j = (r : EReal))
    (hhi : ∀ (v o : Fin 256), hi (ix2 v o) = W (ix2 o v))
    (hlo : ∀ (v o : Fin 256), lo (ix2 v o) = W (ix2 o v) - W (ix2 o v))
    (hb : ∀ o : Fin 256, b3 (ix3 (0 : Fin 1) (0 : Fin 1) o) = b (ix1 o))
    (β : Fin 32) (s : Fin 8192) (o : Fin 256) :
    lookupSplitAt x hi lo b3 β s o = lookupAt x W b β s o := by
  unfold lookupSplitAt lookupAt
  have hz : ∑ v : Fin 256, hot (x (ix2 β s)) v * lo (ix2 v o) = 0 := by
    refine Finset.sum_eq_zero fun v _ => ?_
    obtain ⟨r, hr⟩ := hW (ix2 o v)
    rw [hlo, hr, ← EReal.coe_sub, sub_self, EReal.coe_zero, mul_zero]
  rw [hz, add_zero, hb]
  exact congrArg (· + b (ix1 o)) (Finset.sum_congr rfl fun v _ => by rw [hhi])

theorem lookupSplit_eq_lookup (x : (⟨2, ![32, 8192]⟩ : Shape).Idx → BitVec 32)
    (W hi lo : (⟨2, ![256, 256]⟩ : Shape).Idx → EReal) (b : (⟨1, ![256]⟩ : Shape).Idx → EReal)
    (b3 : (⟨3, ![1, 1, 256]⟩ : Shape).Idx → EReal)
    (hW : ∀ j, ∃ r : ℝ, W j = (r : EReal))
    (hhi : ∀ (v o : Fin 256), hi (ix2 v o) = W (ix2 o v))
    (hlo : ∀ (v o : Fin 256), lo (ix2 v o) = W (ix2 o v) - W (ix2 o v))
    (hb : ∀ o : Fin 256, b3 (ix3 (0 : Fin 1) (0 : Fin 1) o) = b (ix1 o)) :
    lookupSplit x hi lo b3 = lookup x W b :=
  funext fun i => lookupSplitAt_eq_lookupAt x W hi lo b b3 hW hhi hlo hb (i 0) (i 1) (i 2)

end Cert.Lookup

end
-- ==== Proof.Prefix.lean ====
import proofs.«173038_j57183194579644_2_alg».proof.Proof.Gen.KernelIdeal.Frame
import Idealize.ShloMosaic.Lib.Pipeline.Value
import Idealize.ShloMosaic.Lib.ValueIdx
import Idealize.ShloMosaic.Lib.StableHlo.Run

/-!
# What the region finds in the three arrays the host prepares

Before the region the host transposes the weights `W` to `[vocabulary, output]`, keeps that as the first matrix
(a change of float format is the identity on the extended reals), takes the transpose minus itself as the second,
and views the bias `[256]` as `[1, 1, 256]`. Entry by entry: the first matrix at `(v, o)` is `W(o, v)`, the second
is `W(o, v) - W(o, v)`, the bias array at `(0, 0, o)` is `b(o)`.
-/

noncomputable section

namespace Cert.KernelIdeal.Prefix

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The weights and the bias as launched, as plain arrays. -/
abbrev weights (c : Dev nD) : S256x256.Idx → EReal := m ((c : Thread nD τ).loc main_arg1)
abbrev bias (c : Dev nD) : S256.Idx → EReal := m ((c : Thread nD τ).loc main_arg2)

/-- The transposed weights at `(v, o)` are the weights at `(o, v)`. -/
theorem transpose_apply' {α : Type} (W : S256x256.Idx → α) (h : S256x256.Transposes [1, 0] S256x256) (v o : Fin 256) :
    transpose S256x256 [1, 0] W h (ix2 v o) = W (ix2 o v) :=
  transpose_apply [1, 0] W h (ix2 v o) (ix2 o v) fun b => by
    match b with
    | ⟨0, _⟩ => rfl
    | ⟨1, _⟩ => rfl

/-- The first matrix the region stages, as the host's operations of the weights. -/
theorem first_eq (c : Dev nD) :
    (V m c main_v1 : S256x256.Idx → EReal)
      = (truncf (F := Ideal) .bf16 (transpose S256x256 [1, 0] (weights m c) transposes_S256x256_S256x256_1_0) bitsLt_bf16_f32
          : FVec Ideal S256x256 .bf16) := by
  dsimp only [Gen.V, Gen.hostOps0]; after_results <;> rfl

/-- The first matrix at `(v, o)`. -/
theorem first_apply (c : Dev nD) (v o : Fin 256) :
    (V m c main_v1 : S256x256.Idx → EReal) (ix2 v o) = weights m c (ix2 o v) := by
  rw [first_eq]
  exact transpose_apply' _ _ v o

/-- The second matrix the region stages, as the host's operations of the weights. -/
theorem second_eq (c : Dev nD) :
    (V m c main_v4 : S256x256.Idx → EReal)
      = (truncf (F := Ideal) .bf16 (subf (F := Ideal) (φ := .f32) (transpose S256x256 [1, 0] (weights m c) transposes_S256x256_S256x256_1_0)
          (extf (F := Ideal) .f32 (truncf (F := Ideal) .bf16 (transpose S256x256 [1, 0] (weights m c) transposes_S256x256_S256x256_1_0) bitsLt_bf16_f32) bitsLt_bf16_f32))
          bitsLt_bf16_f32 : FVec Ideal S256x256 .bf16) := by
  dsimp only [Gen.V, Gen.hostOps0]; after_results <;> rfl

/-- The second matrix at `(v, o)`: the weight minus itself. -/
theorem second_apply (c : Dev nD) (v o : Fin 256) :
    (V m c main_v4 : S256x256.Idx → EReal) (ix2 v o) = weights m c (ix2 o v) - weights m c (ix2 o v) := by
  rw [second_eq]
  show transpose S256x256 [1, 0] (weights m c) _ (ix2 v o) - transpose S256x256 [1, 0] (weights m c) _ (ix2 v o) = _
  rw [transpose_apply' _ _ v o]

/-- The bias array the region stages, as the host's view of the bias. -/
theorem bias_eq (c : Dev nD) :
    (V m c main_v5 : S1x1x256.Idx → EReal) = shapeCast S1x1x256 (bias m c) shapeCasts_S256_S1x1x256 := by
  dsimp only [Gen.V, Gen.hostOps0]; after_results <;> rfl

/-- The bias array at `(0, 0, o)`. -/
theorem bias_apply (c : Dev nD) (o : Fin 256) :
    (V m c main_v5 : S1x1x256.Idx → EReal) (ix3 (0 : Fin 1) (0 : Fin 1) o) = bias m c (ix1 o) := by
  rw [bias_eq]
  exact shapeCast_apply (bias m c) shapeCasts_S256_S1x1x256 (ix3 (0 : Fin 1) (0 : Fin 1) o) (ix1 o) (by
    rw [Shape.rowMajor_val_one, Shape.rowMajor_val_three]
    show o.val = (0 * 1 + 0) * 256 + o.val
    omega)

end Cert.KernelIdeal.Prefix

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Body.lean ====
import proofs.«173038_j57183194579644_2_alg».proof.Proof.Gen.KernelIdeal.Skeleton
import proofs.«173038_j57183194579644_2_alg».proof.Proof.Lookup
import proofs.«173038_j57183194579644_2_alg».proof.Proof.LibPlainDot
import proofs.«173038_j57183194579644_2_alg».proof.Proof.LibColumn
import Idealize.ShloMosaic.Lib.Pipeline.Value
import Idealize.ShloMosaic.Lib.ValueIdx

/-!
# What one grid step stores, entry by entry

One step holds a `[32, 256]` tile of tokens `x0`, the two transposed weight matrices `x1`, `x2` and the bias `x3`.
It flattens the tile to 8192 tokens (token `(β, s)` becomes row `n = 256 β + s`), compares each token with the
column number to get the `[8192, 256]` indicator matrix, multiplies it by `x1` and by `x2`, adds the two products,
folds the rows back to `[32, 256, 256]` and adds the bias along the last axis. Read at `(β, s, o)`:

  `(∑ v, [x0(β, s) = v] · x1(v, o)  +  ∑ v, [x0(β, s) = v] · x2(v, o))  +  x3(0, 0, o)`.

Each layout step is read at an index by the position it keeps in row-major order; the indicator is the same real
`0` or `1` whether the comparison's bit is widened and read signed, or read unsigned directly.
-/

noncomputable section

namespace Cert.KernelIdeal.Body

open Cert.KernelIdeal Cert.KernelIdeal.Gen Idealize.ShloMosaic Idealize.ShloMosaic.ValueIdx Cert.Lookup
open scoped BigOperators

/-- Row `n = 256 β + s` of the flattened tile. -/
abbrev row (β : Fin 32) (s : Fin 256) : Fin 8192 := ⟨β.val * 256 + s.val, by have := β.isLt; have := s.isLt; omega⟩

/-- One bit widened to a word and read signed is the bit read unsigned. -/
theorem bit_signed_eq_unsigned (c : BitVec 1) : (((c.setWidth 32).toInt : ℝ) : EReal) = ((c.toNat : ℝ) : EReal) := by
  have h : (c.setWidth 32).toInt = (c.toNat : ℤ) := by
    rcases BitVec.eq_zero_or_eq_one c with h | h <;> subst h <;> decide
  rw [h, Int.cast_natCast]

/-- A `[8192, 256]` array folded to `[32, 256, 256]` reads, at `(β, s, o)`, row `256 β + s`, column `o`. -/
theorem fold_rows_apply {α : Type} (y : S8192x256.Idx → α) (h : S8192x256.ShapeCasts S32x256x256)
    (β : Fin 32) (s : Fin 256) (o : Fin 256) :
    shapeCast S32x256x256 y h (ix3 β s o) = y (ix2 (row β s) o) :=
  shapeCast_apply y h _ _ (by
    rw [Shape.rowMajor_val_two, Shape.rowMajor_val_three]
    show (β.val * 256 + s.val) * 256 + o.val = (β.val * 256 + s.val) * 256 + o.val
    rfl)

/-- The bias `[1, 1, 256]` repeated over the tile reads, at `(β, s, o)`, the bias at `o`. -/
theorem bias_apply {α : Type} (x3 : S1x1x256.Idx → α) (h : S1x1x256.ShapeCasts S1x1x256)
    (h' : S1x1x256.Broadcasts S32x256x256) (β : Fin 32) (s : Fin 256) (o : Fin 256) :
    broadcastTo S32x256x256 (shapeCast S1x1x256 x3 h) h' (ix3 β s o) = x3 (ix3 (0 : Fin 1) (0 : Fin 1) o) := by
  rw [shapeCast_self]
  refine broadcastTo_apply x3 h' (ix3 β s o) (ix3 (0 : Fin 1) (0 : Fin 1) o) fun a => ?_
  match a with
  | ⟨0, _⟩ => rfl
  | ⟨1, _⟩ => rfl
  | ⟨2, _⟩ => rfl

/-- The token tile flattened, stood up as a column and repeated over the 256 columns reads, at `(256 β + s, v)`,
    the token at `(β, s)`. -/
theorem token_apply {α : Type} (x0 : S32x256.Idx → α) (h1 : S32x256.ShapeCasts S8192) (h2 : S8192.ShapeCasts S8192x1)
    (h3 : S8192x1.Broadcasts S8192x256) (β : Fin 32) (s : Fin 256) (v : Fin 256) :
    broadcastTo S8192x256 (shapeCast S8192x1 (shapeCast S8192 x0 h1) h2) h3 (ix2 (row β s) v) = x0 (ix2 β s) := by
  refine (Cert.LibColumn.broadcastTo_a1_ab_apply _ h3 (row β s) v).trans ?_
  refine (Cert.LibColumn.shapeCast_a_a1_apply _ h2 (row β s) (0 : Fin 1)).trans ?_
  exact shapeCast_apply x0 h1 _ _ (by
    rw [Shape.rowMajor_val_two, Shape.rowMajor_val_one]
    rfl)

/-- The indicator matrix at `(256 β + s, v)` is the indicator of "the token at `(β, s)` is `v`". -/
theorem onehot_apply (x0 : Vec Ideal S32x256 .i32) (h1 : S32x256.ShapeCasts S8192) (h2 : S8192.ShapeCasts S8192x1)
    (h3 : S8192x1.Broadcasts S8192x256) (h4 : S8192x256.Iotas .tc 32 [1]) (h5 : 1 < 32) (h6 : FTy.bits .bf16 < FTy.bits .f32)
    (β : Fin 32) (s : Fin 256) (v : Fin 256) :
    (truncf .bf16 (sitofp (F := Ideal) .f32 (extui 32 (cmpi .eq
        (broadcastTo S8192x256 (shapeCast S8192x1 (shapeCast S8192 x0 h1) h2) h3) (iota .tc S8192x256 32 [1] h4)) h5)) h6
      : FVec Ideal S8192x256 .bf16) (ix2 (row β s) v) = hot (x0 (ix2 β s)) v := by
  show ((((IntOp.cmpi .eq (broadcastTo S8192x256 (shapeCast S8192x1 (shapeCast S8192 x0 h1) h2) h3 (ix2 (row β s) v))
      (iota .tc S8192x256 32 [1] h4 (ix2 (row β s) v))).setWidth 32).toInt : ℝ) : EReal) = _
  rw [token_apply x0 h1 h2 h3 β s v, iota_single_apply, bit_signed_eq_unsigned]
  rfl

/-- The product of the indicator matrix with a `[256, 256]` matrix into a zero accumulator, at `(n, o)`. -/
theorem product_apply (oh : FVec Ideal S8192x256 .bf16) (x1 : FVec Ideal S256x256 .bf16) (h : S256x256.ShapeCasts S256x256)
    (n : Fin 8192) (o : Fin 256) :
    matmul dot_S8192x256_S256x256_S8192x256_1_0_0_1_n_n none oh (shapeCast S256x256 x1 h)
        (constant (F := Ideal) S8192x256 .f32 0x00000000#32) (ix2 n o)
      = ∑ v : Fin 256, oh (ix2 n v) * x1 (ix2 v o) := by
  rw [shapeCast_self]
  exact Cert.LibPlainDot.matmul_zero_apply dot_S8192x256_S256x256_S8192x256_1_0_0_1_n_n ⟨rfl, rfl, rfl, rfl, rfl, rfl⟩ none oh x1 n o

/-- WHAT ONE STEP STORES at `(β, s, o)`: the two indicator sums and the bias. -/
theorem pay_apply (x0 : Vec Ideal S32x256 .i32) (x1 x2 : Vec Ideal S256x256 .bf16) (x3 : Vec Ideal S1x1x256 .f32)
    (β : Fin 32) (s : Fin 256) (o : Fin 256) :
    k0_pay1 (F := Ideal) x0 x1 x2 x3 (ix3 β s o)
      = ((∑ v : Fin 256, hot (x0 (ix2 β s)) v * x1 (ix2 v o)) + (∑ v : Fin 256, hot (x0 (ix2 β s)) v * x2 (ix2 v o)))
          + x3 (ix3 (0 : Fin 1) (0 : Fin 1) o) := by
  unfold k0_pay1
  refine (addf_apply _ _ _).trans ?_
  refine congrArg₂ (· + ·) ?_ (bias_apply x3 _ _ β s o)
  refine (fold_rows_apply _ _ β s o).trans ?_
  refine (addf_apply _ _ _).trans ?_
  refine congrArg₂ (· + ·) ?_ ?_
  · refine (product_apply _ x1 _ (row β s) o).trans ?_
    exact Finset.sum_congr rfl fun v _ => congrArg (· * x1 (ix2 v o)) (onehot_apply x0 _ _ _ _ _ _ β s v)
  · refine (product_apply _ x2 _ (row β s) o).trans ?_
    exact Finset.sum_congr rfl fun v _ => congrArg (· * x2 (ix2 v o)) (onehot_apply x0 _ _ _ _ _ _ β s v)

end Cert.KernelIdeal.Body

end
-- ==== Proof.Tiles.lean ====
import proofs.«173038_j57183194579644_2_alg».proof.Proof.Gen.KernelIdeal.Value
import proofs.«173038_j57183194579644_2_alg».proof.Proof.Body
import proofs.«173038_j57183194579644_2_alg».proof.Proof.Lookup
import Idealize.ShloMosaic.Lib.Pipeline.Value
import Idealize.ShloMosaic.Lib.ValueIdx

/-!
# From the 32 column tiles to the whole result

Grid step `t` reads the token columns `256 t … 256 t + 255` (all 32 rows), the two whole matrices and the whole bias
array, and writes the result's columns `256 t … 256 t + 255` (all rows, all 256 outputs). So what step `t` writes
back is exactly tile `t` of ONE array, the two-part lookup `lookupSplit` of the arrays as the region finds them:
at `(β, s, o)` of the tile the step's entry (the module on one step) is the two-part lookup at `(β, 256 t + s, o)`.
The 32 tiles cover every column (`column / 256` is the step that writes it), so after the run the result array is
that one function.
-/

noncomputable section

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx Cert.Lookup
open scoped BigOperators

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The grid has 32 steps. -/
theorem step_lt (t : Fin cfg0.N) : t.val < 32 := lt_of_lt_of_eq t.isLt N_0

/-- Column `256 t + s` of the token array and of the result. -/
abbrev col (t : Fin cfg0.N) (s : Fin 256) : Fin 8192 := ⟨t.val * 256 + s.val, by have := step_lt t; have := s.isLt; omega⟩

/-- The index maps over the 32 steps: the token tile and the result tile move along the column axis with the step,
    everything else stays at block 0. -/
theorem tile_index : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = t.val ∧ win0_4.index t (2 : Fin 3) = 0 :=
  (by decide +kernel : ∀ t : Fin grid0.N, _)

/-- The result array as ONE function of the arrays the region finds: the two-part lookup. -/
def result (c : Dev nD) : S32x8192x256.Idx → EReal :=
  lookupSplit (V m c main_arg0 : S32x8192.Idx → BitVec 32) (V m c main_v1 : S256x256.Idx → EReal)
    (V m c main_v4 : S256x256.Idx → EReal) (V m c main_v5 : S1x1x256.Idx → EReal)

/-- Step `t`'s token tile at `(β, s)` is the token array at `(β, 256 t + s)`. -/
theorem tokens_tile (c : Dev nD) (t : Fin cfg0.N) (β : Fin 32) (s : Fin 256) :
    iblk m c 0 t (ix2 β s) = (V m c main_arg0 : S32x8192.Idx → BitVec 32) (ix2 β (col t s)) := by
  show V m c main_arg0 (((cfg0.win 0).blk t).view.emb (ix2 β s)) = V m c main_arg0 (ix2 β (col t s))
  refine congrArg (V m c main_arg0) (funext fun a => Fin.ext ?_)
  obtain ⟨e0, e1, -⟩ := tile_index t
  match a with
  | ⟨0, _⟩ => show win0_0.index t (0 : Fin 2) * 32 + 1 * β.val = β.val; omega
  | ⟨1, _⟩ => show win0_0.index t (1 : Fin 2) * 256 + 1 * s.val = t.val * 256 + s.val; omega

/-- Every step stages the whole first matrix. -/
theorem first_tile (c : Dev nD) (t : Fin cfg0.N) (v o : Fin 256) :
    iblk m c 1 t (ix2 v o) = (V m c main_v1 : S256x256.Idx → EReal) (ix2 v o) := by
  show V m c main_v1 (((cfg0.win 1).blk t).view.emb (ix2 v o)) = V m c main_v1 (ix2 v o)
  refine congrArg (V m c main_v1) (funext fun a => Fin.ext ?_)
  obtain ⟨-, -, e2, e3, -⟩ := tile_index t
  match a with
  | ⟨0, _⟩ => show win0_1.index t (0 : Fin 2) * 256 + 1 * v.val = v.val; omega
  | ⟨1, _⟩ => show win0_1.index t (1 : Fin 2) * 256 + 1 * o.val = o.val; omega

/-- Every step stages the whole second matrix. -/
theorem second_tile (c : Dev nD) (t : Fin cfg0.N) (v o : Fin 256) :
    iblk m c 2 t (ix2 v o) = (V m c main_v4 : S256x256.Idx → EReal) (ix2 v o) := by
  show V m c main_v4 (((cfg0.win 2).blk t).view.emb (ix2 v o)) = V m c main_v4 (ix2 v o)
  refine congrArg (V m c main_v4) (funext fun a => Fin.ext ?_)
  obtain ⟨-, -, -, -, e4, e5, -⟩ := tile_index t
  match a with
  | ⟨0, _⟩ => show win0_2.index t (0 : Fin 2) * 256 + 1 * v.val = v.val; omega
  | ⟨1, _⟩ => show win0_2.index t (1 : Fin 2) * 256 + 1 * o.val = o.val; omega

/-- Every step stages the whole bias array. -/
theorem bias_tile (c : Dev nD) (t : Fin cfg0.N) (o : Fin 256) :
    iblk m c 3 t (ix3 (0 : Fin 1) (0 : Fin 1) o) = (V m c main_v5 : S1x1x256.Idx → EReal) (ix3 (0 : Fin 1) (0 : Fin 1) o) := by
  show V m c main_v5 (((cfg0.win 3).blk t).view.emb (ix3 (0 : Fin 1) (0 : Fin 1) o)) = V m c main_v5 (ix3 (0 : Fin 1) (0 : Fin 1) o)
  refine congrArg (V m c main_v5) (funext fun a => Fin.ext ?_)
  obtain ⟨-, -, -, -, -, -, e6, e7, e8, -⟩ := tile_index t
  match a with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 256 + 1 * o.val = o.val; omega

/-- Entry `(β, s, o)` of step `t`'s result tile sits at `(β, 256 t + s, o)` of the result array. -/
theorem result_tile (t : Fin cfg0.N) (β : Fin 32) (s : Fin 256) (o : Fin 256) :
    ((cfg0.win 4).blk t).view.emb (ix3 β s o) = (ix3 β (col t s) o : S32x8192x256.Idx) := by
  refine funext fun a => Fin.ext ?_
  obtain ⟨-, -, -, -, -, -, -, -, -, e9, e10, e11⟩ := tile_index t
  match a with
  | ⟨0, _⟩ => show win0_4.index t (0 : Fin 3) * 32 + 1 * β.val = β.val; omega
  | ⟨1, _⟩ => show win0_4.index t (1 : Fin 3) * 256 + 1 * s.val = t.val * 256 + s.val; omega
  | ⟨2, _⟩ => show win0_4.index t (2 : Fin 3) * 256 + 1 * o.val = o.val; omega

/-- WHAT STEP `t` WRITES BACK is tile `t` of the two-part lookup. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero3]
  simp only [View.ld_unit_zero (S := S32x256) zero2, View.ld_unit_zero (S := S256x256) zero2, View.ld_unit_zero (S := S1x1x256) zero3]
  funext j
  obtain ⟨β, s, o, rfl⟩ : ∃ (β : Fin 32) (s : Fin 256) (o : Fin 256), j = ix3 β s o := ⟨j 0, j 1, j 2, eq_ix3 j⟩
  show k0_pay1 (iblk m c 0 t) (iblk m c 1 t) (iblk m c 2 t) (iblk m c 3 t) (ix3 β s o)
      = result m c (((cfg0.win 4).blk t).view.emb (ix3 β s o))
  rw [result_tile t β s o]
  refine (Cert.KernelIdeal.Body.pay_apply (iblk m c 0 t) (iblk m c 1 t) (iblk m c 2 t) (iblk m c 3 t) β s o).trans ?_
  show _ = lookupSplitAt _ _ _ _ β (col t s) o
  unfold lookupSplitAt
  rw [tokens_tile m c t β s, bias_tile m c t o]
  refine congrArg₂ (· + ·) (congrArg₂ (· + ·) (Finset.sum_congr rfl fun v _ => ?_) (Finset.sum_congr rfl fun v _ => ?_)) rfl
  · rw [first_tile m c t v o]
  · rw [second_tile m c t v o]

/-- An index of the result is in step `t`'s tile iff each coordinate is in the tile's range on its axis. -/
theorem mem_tile (t : Fin cfg0.N) (i : S32x8192x256.Idx) :
    i ∈ ((cfg0.win 4).blk t).view.set ↔ ∀ a : Fin 3, win0_4.index t a * S32x256x256.size a ≤ (i a).val ∧ (i a).val < win0_4.index t a * S32x256x256.size a + S32x256x256.size a := by
  show i ∈ ((View.whole main_v6).slice (win0_4.rect t)).set ↔ _
  rw [View.set_slice_whole, Rect.mem_set_unit]
  exact Iff.rfl

/-- Every index of the result is in the tile of step `column / 256`. -/
theorem cover (i : S32x8192x256.Idx) : ∃ t : Fin cfg0.N, (cfg0.win 4).flush t = true ∧ i ∈ ((cfg0.win 4).blk t).view.set := by
  have h0 : (i 0).val < 32 := (i 0).isLt
  have h1 : (i 1).val < 8192 := (i 1).isLt
  have h2 : (i 2).val < 256 := (i 2).isLt
  have hN : cfg0.N = 32 := N_0
  refine ⟨⟨(i 1).val / 256, by rw [hN]; omega⟩, flush0_4 _, ?_⟩
  rw [mem_tile]
  obtain ⟨-, -, -, -, -, -, -, -, -, e9, e10, e11⟩ := tile_index ⟨(i 1).val / 256, by rw [hN]; omega⟩
  intro a
  match a with
  | ⟨0, _⟩ =>
    show win0_4.index _ (0 : Fin 3) * 32 ≤ (i 0).val ∧ (i 0).val < win0_4.index _ (0 : Fin 3) * 32 + 32
    rw [e9]; omega
  | ⟨1, _⟩ =>
    show win0_4.index _ (1 : Fin 3) * 256 ≤ (i 1).val ∧ (i 1).val < win0_4.index _ (1 : Fin 3) * 256 + 256
    rw [e10]
    show (i 1).val / 256 * 256 ≤ (i 1).val ∧ (i 1).val < (i 1).val / 256 * 256 + 256
    omega
  | ⟨2, _⟩ =>
    show win0_4.index _ (2 : Fin 3) * 256 ≤ (i 2).val ∧ (i 2).val < win0_4.index _ (2 : Fin 3) * 256 + 256
    rw [e11]; omega

/-- THE RESULT ARRAY after the run is the two-part lookup of the arrays the region finds. -/
theorem final (c : Dev nD) : (dats m 0 c).arrAt 4 cfg0.N = result m c :=
  (dats m 0 c).arrAt_eq_of_cover 4 (result m c) (fun t _ => flushed_eq m c t) cover

/-- The run, with the result array named by that function and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Tiles

end
-- ==== Proof.Finite.lean ====
import proofs.«173038_j57183194579644_2_alg».proof.Pre_finite_inputs
import proofs.«173038_j57183194579644_2_alg».proof.Proof.Gen.Pre_finite_inputs
import Idealize.ShloMosaic.Lib.ReduceAll
import Idealize.ShloMosaic.Lib.Affine
import Idealize.ShloMosaic.Lib.ValueIdx
import Idealize.ShloMosaic.PureOps.Ideal

/-!
# The precondition says the weights are real numbers

On the extended reals the precondition is "every `|W(j)| < +∞` and every `|b(o)| < +∞`", taken as a conjunction over
all entries. From it each weight is neither `+∞` nor `-∞`, so it is a real number: what the step `w - w = 0` of the
lookup's algebra needs.
-/

noncomputable section

namespace Cert.Pre_finite_inputs.Finite

open Idealize.ShloMosaic Cert.Pre_finite_inputs

instance : Subsingleton S_.Idx := ⟨fun a b => funext fun d => d.elim0⟩

/-- The pattern the precondition compares against is `+∞`. -/
theorem inf_pattern : Ideal.ofBits .f32 0x7F800000#32 = ⊤ := by simp [Ideal.ofBits, Ideal.ieee]

/-- An extended real whose absolute value is strictly below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- THE PRECONDITION READ AT THE WEIGHTS: every entry is a real number. -/
theorem weights_real (x : IVec S32x8192 32) (W : FVec Ideal S256x256 .f32) (b : FVec Ideal S256 .f32)
    (h : fn (F := Ideal) x W b = fun _ => 1#1) (j : S256x256.Idx) : ∃ r : ℝ, W j = (r : EReal) := by
  have h0 := congrFun h ValueIdx.ix0
  dsimp only [fn] at h0
  obtain ⟨hW, -⟩ := IntOp.andi_eq_one.1 h0
  have hj := Host.reduce_andi_all _ _ _ _ _ hW j
  refine real_of_abs_lt_top (W j) ?_
  have hlt : Ideal.cmp .olt (max (W j) (-(W j))) (Ideal.ofBits .f32 0x7F800000#32) = 1#1 := hj
  rw [inf_pattern] at hlt
  unfold Ideal.cmp at hlt
  by_contra hn
  simp [hn] at hlt

end Cert.Pre_finite_inputs.Finite

end
-- ==== Proof.Reference.lean ====
import proofs.«173038_j57183194579644_2_alg».proof.Proof.Gen.ReferenceIdeal.Read
import proofs.«173038_j57183194579644_2_alg».proof.Proof.Lookup
import Idealize.ShloMosaic.Lib.ValueIdx

/-!
# The reference computes the lookup

The reference builds the indicator array `[32, 8192, 256]` by comparing the token, repeated along a new last axis,
with the column numbers `0 … 255`, reads the comparison's bit as a float, contracts the last axis with the
vocabulary axis of `W`, and adds the bias along the last axis. Read at `(β, s, o)` operation by operation that is
`∑ v, [x(β, s) = v] · W(o, v) + b(o)`: the lookup.
-/

noncomputable section

namespace Cert.ReferenceIdeal.RefValue

open Cert.ReferenceIdeal Cert.ReferenceIdeal.Read Idealize.ShloMosaic Idealize.ShloMosaic.ValueIdx Cert.Lookup
open scoped BigOperators

/-- The reference's indicator array at `(β, s, v)` is the indicator of "the token at `(β, s)` is `v`". -/
theorem indicator_apply (x : S32x8192.Idx → BitVec 32) (β : Fin 32) (s : Fin 8192) (v : Fin 256) :
    val_main_v0 (F := Ideal) x (ix3 β s v) = hot (x (ix2 β s)) v := by
  rw [val_main_v0_apply, val_main_call0_v4_apply, val_main_call0_v2_apply, val_main_call0_v0_apply,
    val_main_call0_v3_apply, val_main_call0_v1_apply]
  have e : idx_main_call0_v0 (idx_main_call0_v2 (ix3 β s v)) = ix2 β s :=
    funext fun a => Fin.ext (by match a with | ⟨0, _⟩ => rfl | ⟨1, _⟩ => rfl)
  rw [e]
  rfl

/-- THE REFERENCE'S RESULT is the lookup of its three arguments. -/
theorem result_eq_lookup (x : S32x8192.Idx → BitVec 32) (W : S256x256.Idx → EReal) (b : S256.Idx → EReal) :
    val_main_v4 (F := Ideal) x W b = lookup x W b := by
  funext i
  obtain ⟨β, s, o, rfl⟩ : ∃ (β : Fin 32) (s : Fin 8192) (o : Fin 256), i = ix3 β s o := ⟨i 0, i 1, i 2, eq_ix3 i⟩
  rw [val_main_v4_apply, val_main_v1_apply, val_main_v3_apply, val_main_v2_apply]
  show (∑ k : Fin 256, val_main_v0 (F := Ideal) x (lidx_main_v1 (ix3 β s o) k) * W (ridx_main_v1 (ix3 β s o) k))
      + b (idx_main_v2 (idx_main_v3 (ix3 β s o))) = lookupAt x W b β s o
  unfold lookupAt
  have eb : idx_main_v2 (idx_main_v3 (ix3 β s o)) = ix1 o :=
    funext fun a => Fin.ext (by match a with | ⟨0, _⟩ => rfl)
  rw [eb]
  refine congrArg (· + b (ix1 o)) (Finset.sum_congr rfl fun k _ => ?_)
  have el : lidx_main_v1 (ix3 β s o) k = ix3 β s k :=
    funext fun a => Fin.ext (by match a with | ⟨0, _⟩ => rfl | ⟨1, _⟩ => rfl | ⟨2, _⟩ => rfl)
  have er : ridx_main_v1 (ix3 β s o) k = ix2 o k :=
    funext fun a => Fin.ext (by match a with | ⟨0, _⟩ => rfl | ⟨1, _⟩ => rfl)
  rw [el, er, indicator_apply]

end Cert.ReferenceIdeal.RefValue

end
-- ==== Proof.lean ====
/-
  An embedding lookup, `out(β, s, o) = ∑ v, [x(β, s) = v] · W(o, v) + b(o)` over `i32[32, 8192]` tokens, `f32[256, 256]`
  weights and an `f32[256]` bias.

  The kernel's program transposes `W` on the host, keeps the transpose as a first matrix and "the transpose minus
  itself rounded" as a second, and launches 32 grid steps; step `t` takes the token columns `256 t … 256 t + 255`,
  builds their indicator matrix, multiplies it with both matrices, adds the products and the bias, and writes the
  result's columns `256 t … 256 t + 255`. On the extended reals a change of float format is the identity, so the
  second matrix is `W(o, v) - W(o, v)` entry by entry.

  The proof, module by module:
  * `Lookup`   — the lookup as one function; its two-part form; the two agree when the weights are real numbers
                 (`w - w = 0` needs `w` finite, the rest is `a · 0 = 0` and `s + 0 = s`).
  * `Body`     — what one grid step stores at `(β, s, o)`: the two indicator sums and the bias.
  * `Prefix`   — what the region finds in the three arrays the host prepares, entry by entry.
  * `Tiles`    — step `t` writes tile `t` of the two-part lookup; the 32 tiles cover the result.
  * `Finite`   — the precondition makes every weight a real number.
  * `Reference`— the reference's operations, read at an index, are the lookup.
  Here: the kernel's result under the precondition is the lookup of the arguments, the three frames, and the claim
  that both programs end with the lookup of arguments that agree.
-/
import proofs.«173038_j57183194579644_2_alg».proof.Defs
import proofs.«173038_j57183194579644_2_alg».proof.Proof.Gen.Kernel
import proofs.«173038_j57183194579644_2_alg».proof.Proof.Gen.Kernel.Skeleton
import proofs.«173038_j57183194579644_2_alg».proof.Proof.Gen.Kernel.Launch
import proofs.«173038_j57183194579644_2_alg».proof.Proof.Gen.Kernel.Points
import proofs.«173038_j57183194579644_2_alg».proof.Proof.Gen.Kernel.Frame
import proofs.«173038_j57183194579644_2_alg».proof.Proof.Gen.KernelIdeal
import proofs.«173038_j57183194579644_2_alg».proof.Proof.Gen.KernelIdeal.Skeleton
import proofs.«173038_j57183194579644_2_alg».proof.Proof.Gen.KernelIdeal.Launch
import proofs.«173038_j57183194579644_2_alg».proof.Proof.Gen.KernelIdeal.Points
import proofs.«173038_j57183194579644_2_alg».proof.Proof.Gen.KernelIdeal.Frame
import proofs.«173038_j57183194579644_2_alg».proof.Proof.Gen.ReferenceIdeal
import proofs.«173038_j57183194579644_2_alg».proof.Proof.Gen.KernelIdeal.Value
import proofs.«173038_j57183194579644_2_alg».proof.Proof.Gen.ReferenceIdeal.Run
import proofs.«173038_j57183194579644_2_alg».proof.Proof.Gen.ReferenceIdeal.Read
import proofs.«173038_j57183194579644_2_alg».proof.Proof.Gen.Pre_finite_inputs
import proofs.«173038_j57183194579644_2_alg».proof.Proof.Lookup
import proofs.«173038_j57183194579644_2_alg».proof.Proof.Prefix
import proofs.«173038_j57183194579644_2_alg».proof.Proof.Tiles
import proofs.«173038_j57183194579644_2_alg».proof.Proof.Finite
import proofs.«173038_j57183194579644_2_alg».proof.Proof.Reference
import Idealize.ShloMosaic.Adequacy
import Idealize.ShloMosaic.Init

noncomputable section

namespace Cert.Proof

open Idealize.ShloMosaic Idealize.ShloMosaic.TcCoe Idealize.SL.Sem Cert.Lookup

/-- UNDER THE PRECONDITION the kernel's result array is the lookup of the three arguments: the token array reaches
    the region as launched, the three prepared arrays are the transpose, the transpose minus itself and the bias
    viewed `[1, 1, 256]`, and the weights are real numbers, so the two-part lookup is the plain one. -/
theorem kernel_result (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Tiles.result m c
      = lookup (m ((c : Thread Cert.KernelIdeal.nD Cert.KernelIdeal.τ).loc Cert.KernelIdeal.main_arg0))
          (Cert.KernelIdeal.Prefix.weights m c) (Cert.KernelIdeal.Prefix.bias m c) := by
  unfold Cert.KernelIdeal.Tiles.result
  rw [Cert.KernelIdeal.Gen.V_main_arg0 m c]
  exact lookupSplit_eq_lookup _ (Cert.KernelIdeal.Prefix.weights m c) _ _ (Cert.KernelIdeal.Prefix.bias m c) _
    (fun j => Cert.Pre_finite_inputs.Finite.weights_real _ _ _ (hpre c) j)
    (Cert.KernelIdeal.Prefix.first_apply m c) (Cert.KernelIdeal.Prefix.second_apply m c)
    (Cert.KernelIdeal.Prefix.bias_apply m c)

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the lookup of those arguments. -/
theorem algebraic : Cert.algebraic_KernelIdeal_ReferenceIdeal := by
  intro m ρ m' ρ' hpre hagree
  refine ⟨fun c => lookup (m ((c : Thread Cert.KernelIdeal.nD Cert.KernelIdeal.τ).loc Cert.KernelIdeal.main_arg0))
      (Cert.KernelIdeal.Prefix.weights m c) (Cert.KernelIdeal.Prefix.bias m c), ?_, ?_⟩
  · exact (θ_run Cert.KernelIdeal.defs _ _).mono
      (fun r h c => ⟨(h c).1.trans (kernel_result m hpre c), (h c).2⟩) (Cert.KernelIdeal.Tiles.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v4_eq]
    exact Cert.ReferenceIdeal.RefValue.result_eq_lookup _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
